-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S512x768 : Shape := ⟨2, ![512, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S512x768 : S_.BroadcastsInDim S512x768 (![] : Fin 0 → Fin S512x768.rank)
  reducesTo_S512x768_S_d0_1 : S512x768.ReducesTo [0, 1] S_

variable [Facts]

def fn {F : FTy → Type} [FloatOps F] (main_arg0 : FVec F S32x512x768 .f32) (main_arg1 : FVec F S512x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  main_v8
-- ==== Kernel.lean ====
abbrev S32x512x768 : Shape := ⟨3, ![32, 512, 768]⟩
abbrev S512x768 : Shape := ⟨2, ![512, 768]⟩
abbrev S16384x768 : Shape := ⟨2, ![16384, 768]⟩
abbrev S_ : Shape := ⟨0, ![]⟩
abbrev S512 : Shape := ⟨1, ![512]⟩
abbrev S512x1 : Shape := ⟨2, ![512, 1]⟩
abbrev S1x512 : Shape := ⟨2, ![1, 512]⟩
abbrev S16384x512 : Shape := ⟨2, ![16384, 512]⟩
abbrev S2048x768 : Shape := ⟨2, ![2048, 768]⟩
abbrev S2048x512 : Shape := ⟨2, ![2048, 512]⟩
abbrev S2048 : Shape := ⟨1, ![2048]⟩
abbrev S2048x1 : Shape := ⟨2, ![2048, 1]⟩
abbrev S32x512x512 : Shape := ⟨3, ![32, 512, 512]⟩

abbrev nBuf : Space → Nat
  | .hbm => 11
  | .vmem => 6
  | .smem => 0
  | _ => 0

abbrev bufTy : (tb : Table) → Fin (tcTables nBuf tb) → BufTy
  | .hbm, ⟨0, _⟩ => ⟨S32x512x768, .f32⟩
  | .hbm, ⟨1, _⟩ => ⟨S512x768, .f32⟩
  | .hbm, ⟨2, _⟩ => ⟨S16384x768, .f32⟩
  | .hbm, ⟨3, _⟩ => ⟨S512x768, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S512x768, .bf16⟩
  | .hbm, ⟨9, _⟩ => ⟨S16384x512, .f32⟩
  | .hbm, ⟨10, _⟩ => ⟨S32x512x512, .f32⟩
  | .local _ .vmem, ⟨0, _⟩ => ⟨S2048x768, .f32⟩
  | .local _ .vmem, ⟨1, _⟩ => ⟨S2048x768, .f32⟩
  | .local _ .vmem, ⟨2, _⟩ => ⟨S512x768, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x768_S16384x768 : S32x512x768.ShapeCasts S16384x768
  reducesTo_S512x768_S512_d1 : S512x768.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x768_S2048 : S2048x768.Reduces [1] S2048
  shapeCasts_S2048_S2048x1 : S2048.ShapeCasts S2048x1
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S16384x512_S32x512x512 : S16384x512.ShapeCasts S32x512x512
  dot_S2048x768_S512x768_S2048x512_1_1_0_0_n_n_wf : DotDims.WF S2048x768 S512x768 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S16384x768.size a
  hwx0_0 : ∀ i : grid0.Coords, EltTy.bits .f32 = 32 ∨ (Rect.block (s := S16384x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .bf16 = 32 ∨ (Rect.block (s := S512x768) S512x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .f32 = 32 ∨ (Rect.block (s := S16384x512) S2048x512.size (cc0_transform_3 i) (hinb0_3 i)).WholeWords (EltTy.packing .f32)

variable [Facts₀]

def dot_S2048x768_S512x768_S2048x512_1_1_0_0_n_n : DotDims S2048x768 S512x768 S2048x512 where
  lhsContracting := [1]
  rhsContracting := [1]
  lhsNonContracting := [0]
  rhsNonContracting := [0]
  lhsBatch := []
  rhsBatch := []
  wf := dot_S2048x768_S512x768_S2048x512_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S512x768 : Shape := ⟨2, ![512, 768]⟩
abbrev S_ : Shape := ⟨0, ![]⟩
abbrev S32x512 : Shape := ⟨2, ![32, 512]⟩
abbrev S32x512x1 : Shape := ⟨3, ![32, 512, 1]⟩
abbrev S512 : Shape := ⟨1, ![512]⟩
abbrev S32x512x512 : Shape := ⟨3, ![32, 512, 512]⟩
abbrev S1x1x512 : Shape := ⟨3, ![1, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S512x768, .f32⟩
  | .hbm, ⟨2, _⟩ => ⟨S32x512x768, .f32⟩
  | .hbm, ⟨3, _⟩ => ⟨S_, .f32⟩
  | .hbm, ⟨4, _⟩ => ⟨S32x512, .f32⟩
  | .hbm, ⟨5, _⟩ => ⟨S32x512x1, .f32⟩
  | .hbm, ⟨6, _⟩ => ⟨S512x768, .f32⟩
  | .hbm, ⟨7, _⟩ => ⟨S_, .f32⟩
  | .hbm, ⟨8, _⟩ => ⟨S512, .f32⟩
  | .hbm, ⟨9, _⟩ => ⟨S32x512x512, .f32⟩
  | .hbm, ⟨10, _⟩ => ⟨S1x1x512, .f32⟩
  | .hbm, ⟨11, _⟩ => ⟨S32x512x512, .f32⟩
  | .hbm, ⟨12, _⟩ => ⟨S32x512x512, .f32⟩
  | .hbm, ⟨13, _⟩ => ⟨S32x512x512, .f32⟩
  | .hbm, ⟨14, _⟩ => ⟨S_, .f32⟩
  | .hbm, ⟨15, _⟩ => ⟨S32x512x512, .f32⟩
  | .hbm, ⟨16, _⟩ => ⟨S32x512x512, .f32⟩
  | .hbm, ⟨17, _⟩ => ⟨S32x512x512, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S32x512x768_S32x512_d2 : S32x512x768.ReducesTo [2] S32x512
  h_S_ : 0 < S_.numel
  bcast_S32x512_S32x512x1_0_1 : S32x512.BroadcastsInDim S32x512x1 (![0, 1] : Fin 2 → Fin S32x512x1.rank)
  reducesTo_S512x768_S512_d1 : S512x768.ReducesTo [1] S512
  bcast_S512_S1x1x512_2 : S512.BroadcastsInDim S1x1x512 (![2] : Fin 1 → Fin S1x1x512.rank)
  bcast_S32x512x1_S32x512x512_0_1_2 : S32x512x1.BroadcastsInDim S32x512x512 (![0, 1, 2] : Fin 3 → Fin S32x512x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  dot_S32x512x768_S512x768_S32x512x512_2_1_01_0_n_n_wf : DotDims.WF S32x512x768 S512x768 S32x512x512 [2] [1] [0, 1] [0] [] []

variable [Facts₀]

def dot_S32x512x768_S512x768_S32x512x512_2_1_01_0_n_n : DotDims S32x512x768 S512x768 S32x512x512 where
  lhsContracting := [2]
  rhsContracting := [1]
  lhsNonContracting := [0, 1]
  rhsNonContracting := [0]
  lhsBatch := []
  rhsBatch := []
  wf := dot_S32x512x768_S512x768_S32x512x512_2_1_01_0_n_n_wf

class Facts : Prop extends Facts₀ where

variable [Facts]
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«109494_j50818053047015_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.Consts.lean ====
/-
  The two float literals of the distance epilogue, as the extended reals their patterns denote: the kernel
  multiplies the cross term by the word of `-2.0`, the reference by the word of `2.0`; both are exact.
-/
import Idealize.ShloMosaic.PureOps.Ideal

noncomputable section

namespace Cert.SqDist.Consts

open Idealize.ShloMosaic

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-2.0` denotes the real `-2`. -/
theorem ofBits_neg_two : Ideal.ofBits .f32 0xC0000000#32 = ((-2 : ℝ) : EReal) := by
  simp [Ideal.ofBits, Ideal.ieee, -EReal.coe_mul]; norm_num

end Cert.SqDist.Consts

end
-- ==== Proof.BlockDist.lean ====
/-
  What the kernel body stores, entry by entry.

  The body holds a block of `2048` flattened tokens `x` (`2048 × 768`), the whole prototype table `w` (`512 × 768`)
  and the row `n` (`1 × 512`) of the prototypes' squared norms. It sums `x · x` along the lanes into one value per token,
  sets these up as a column and repeats it along the `512` lanes, repeats the row `n` down the `2048` tokens, adds the
  two, and adds the product of `x` with `w` (both contracted on the features, into zero) times the constant `-2`. The
  narrowing of `x` before the product changes nothing on the extended reals. So entry `(r, q)` of what it stores is
  `(∑ k, x (r, k)² + n (0, q)) + (∑ k, x (r, k) · w (q, k)) · (-2)`.
-/
import proofs.«109494_j50818053047015_2_alg».proof.Proof.Gen.KernelIdeal.Skeleton
import proofs.«109494_j50818053047015_2_alg».proof.Proof.LibBlockOps
import proofs.«109494_j50818053047015_2_alg».proof.Proof.Consts

noncomputable section

open scoped BigOperators

namespace Cert.SqDist.Body

open Idealize.ShloMosaic Idealize.ShloMosaic.ValueIdx Cert.KernelIdeal Cert.KernelIdeal.Gen

variable [Cert.KernelIdeal.Facts]

/-- Each token's sum of squares, spread along the lanes. -/
theorem sq_spread (x : FVec Ideal S2048x768 .f32) (r : Fin 2048) (q : Fin 512) :
    (broadcastTo S2048x512 (shapeCast S2048x1 (multiReduction (F := Ideal) .add [1] S2048 (mulf x x) 0x00000000#32
        Facts₀.reduces_S2048x768_S2048 (.inl rfl) rfl) Facts₀.shapeCasts_S2048_S2048x1) Facts₀.broadcasts_S2048x1_S2048x512) (ix2 r q)
      = ∑ k : Fin 768, x (ix2 r k) * x (ix2 r k) := by
  refine (Cert.Lib.BlockOps.colSpread_apply _ Facts₀.shapeCasts_S2048_S2048x1 Facts₀.broadcasts_S2048x1_S2048x512 r q).trans ?_
  refine (Cert.Lib.BlockOps.rowSum_apply (mulf x x) 0x00000000#32 Facts₀.reduces_S2048x768_S2048 (.inl rfl) rfl r).trans ?_
  rfl

/-- The product of the token block with the prototype table, at an entry. -/
theorem cross_apply (x : FVec Ideal S2048x768 .f32) (w : FVec Ideal S512x768 .bf16) (r : Fin 2048) (q : Fin 512) :
    (matmul (F := Ideal) dot_S2048x768_S512x768_S2048x512_1_1_0_0_n_n none (truncf .bf16 x Facts₀.bitsLt_bf16_f32) w
        (constant S2048x512 .f32 0x00000000#32)) (ix2 r q)
      = ∑ k : Fin 768, x (ix2 r k) * w (ix2 q k) :=
  Cert.Lib.BlockOps.matmul_rows_apply Facts₀.dot_S2048x768_S512x768_S2048x512_1_1_0_0_n_n_wf none
    (truncf .bf16 x Facts₀.bitsLt_bf16_f32 : FVec Ideal S2048x768 .bf16) w r q

/-- The stored block at entry `(r, q)`. -/
theorem pay_apply (x : Vec Ideal S2048x768 .f32) (w : Vec Ideal S512x768 .bf16) (n : Vec Ideal S1x512 .f32)
    (r : Fin 2048) (q : Fin 512) :
    k0_pay1 (F := Ideal) x w n (ix2 r q)
      = ((∑ k : Fin 768, x (ix2 r k) * x (ix2 r k)) + n (ix2 (0 : Fin 1) q))
        + (∑ k : Fin 768, x (ix2 r k) * w (ix2 q k)) * ((-2 : ℝ) : EReal) := by
  unfold k0_pay1
  simp only [shapeCast_self]
  rw [addf_apply, addf_apply, mulf_apply, broadcast_apply, sq_spread, broadcastTo_1b_ab_apply, cross_apply,
    Ideal.ofBits_def, Cert.SqDist.Consts.ofBits_neg_two]

end Cert.SqDist.Body

end
-- ==== Proof.Blocks.lean ====
/-
  From the blocks the grid points write back to the whole flat distance array.

  The call runs over `8` grid points. Point `t` reads rows `2048 t … 2048 t + 2047` of the flattened token array, the
  whole prototype table and the whole row of squared norms, and writes back rows `2048 t … 2048 t + 2047` of the
  `16384 × 512` output. What it writes is, entry by entry, one function of the three arrays: at flat row `r` and prototype
  `q`, the row's sum of squares plus the prototype's squared norm plus `-2` times their inner product. The eight blocks
  tile the output (row `r` lies in the block of point `r / 2048`), so the output array ends holding that function.
-/
import proofs.«109494_j50818053047015_2_alg».proof.Proof.Gen.KernelIdeal.Frame
import proofs.«109494_j50818053047015_2_alg».proof.Proof.BlockDist
import Idealize.ShloMosaic.Lib.Pipeline.Value
import Idealize.ShloMosaic.Lib.ValueIdx

noncomputable section

open scoped BigOperators

namespace Cert.SqDist.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem offset_zero : (![0, 0] : Fin 2 → Nat) = fun _ => 0 := funext fun a => by fin_cases a <;> rfl

/-- The distance from flat row `r` to prototype `q`, in the kernel's arrangement, from the three arrays the call reads. -/
def flatEntry (X : S16384x768.Idx → EReal) (W : S512x768.Idx → EReal) (Nr : S1x512.Idx → EReal)
    (r : Fin 16384) (q : Fin 512) : EReal :=
  ((∑ k : Fin 768, X (ix2 r k) * X (ix2 r k)) + Nr (ix2 (0 : Fin 1) q))
    + (∑ k : Fin 768, X (ix2 r k) * W (ix2 q k)) * ((-2 : ℝ) : EReal)

/-- The flat distance array. -/
def flat (X : S16384x768.Idx → EReal) (W : S512x768.Idx → EReal) (Nr : S1x512.Idx → EReal) : S16384x512.Idx → EReal :=
  fun i => flatEntry X W Nr (i 0) (i 1)

theorem flat_ix2 (X : S16384x768.Idx → EReal) (W : S512x768.Idx → EReal) (Nr : S1x512.Idx → EReal)
    (r : Fin 16384) (q : Fin 512) : flat X W Nr (ix2 r q) = flatEntry X W Nr r q := rfl

/-- The block indices at each grid point: the token and output windows move with the point along the rows, the table
    and the row of norms stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 8 :=
  (by decide +kernel : ∀ t : Fin grid0.N, _)

/-- What point `t` writes back is block `t` of the flat distance array of the arrays the call finds. -/
theorem flushed_eq (c : Dev nD) (t : Fin cfg0.N) :
    (dats m 0 c).flushed 3 t
      = ((cfg0.win 3).blk t).view.read (Elt Ideal) (flat (V m c main_v0) (V m c main_v5) (V m c main_v4)) := by
  show (cfg0.win 3).cut (grid0.coords t) ((dats m 0 c).after 3 t) = _
  rw [after0_3]
  unfold out0_3
  rw [View.canon_unit_zero offset_zero]
  simp only [View.ld_unit_zero (S := S2048x768) offset_zero, View.ld_unit_zero (S := S512x768) offset_zero,
    View.ld_unit_zero (S := S1x512) offset_zero]
  obtain ⟨e00, e01, e10, e11, e20, e21, e30, e31, ht⟩ := index_facts t
  funext j
  obtain ⟨r, q, rfl⟩ : ∃ (r : Fin 2048) (q : Fin 512), j = ix2 r q := ⟨j 0, j 1, eq_ix2 j⟩
  have hr : r.val < 2048 := r.isLt
  have hR : t.val * 2048 + r.val < 16384 := by omega
  show k0_pay1 (iblk m c 0 t) (iblk m c 1 t) (iblk m c 2 t) (ix2 r q)
    = flat (V m c main_v0) (V m c main_v5) (V m c main_v4) (((cfg0.win 3).blk t).view.emb (ix2 r q))
  refine (Cert.SqDist.Body.pay_apply (iblk m c 0 t) (iblk m c 1 t) (iblk m c 2 t) r q).trans ?_
  have hi : ((cfg0.win 3).blk t).view.emb (ix2 r q) = ix2 (⟨t.val * 2048 + r.val, hR⟩ : Fin 16384) q := by
    funext a; apply Fin.ext
    match a with
    | ⟨0, _⟩ => show win0_3.index t (0 : Fin 2) * 2048 + 1 * r.val = t.val * 2048 + r.val; omega
    | ⟨1, _⟩ => show win0_3.index t (1 : Fin 2) * 512 + 1 * q.val = q.val; omega
  have h0 : ∀ k : Fin 768, iblk m c 0 t (ix2 r k) = V m c main_v0 (ix2 (⟨t.val * 2048 + r.val, hR⟩ : Fin 16384) k) := fun k => by
    show V m c main_v0 (((cfg0.win 0).blk t).view.emb (ix2 r k)) = _
    refine congrArg (V m c main_v0) (funext fun a => Fin.ext ?_)
    match a with
    | ⟨0, _⟩ => show win0_0.index t (0 : Fin 2) * 2048 + 1 * r.val = t.val * 2048 + r.val; omega
    | ⟨1, _⟩ => show win0_0.index t (1 : Fin 2) * 768 + 1 * k.val = k.val; omega
  have h1 : ∀ k : Fin 768, iblk m c 1 t (ix2 q k) = V m c main_v5 (ix2 q k) := fun k => by
    show V m c main_v5 (((cfg0.win 1).blk t).view.emb (ix2 q k)) = _
    refine congrArg (V m c main_v5) (funext fun a => Fin.ext ?_)
    match a with
    | ⟨0, _⟩ => show win0_1.index t (0 : Fin 2) * 512 + 1 * q.val = q.val; omega
    | ⟨1, _⟩ => show win0_1.index t (1 : Fin 2) * 768 + 1 * k.val = k.val; omega
  have h2 : iblk m c 2 t (ix2 (0 : Fin 1) q) = V m c main_v4 (ix2 (0 : Fin 1) q) := by
    show V m c main_v4 (((cfg0.win 2).blk t).view.emb (ix2 (0 : Fin 1) q)) = _
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 512 + 1 * q.val = q.val; omega
  refine Eq.trans ?_ (congrArg (flat (V m c main_v0) (V m c main_v5) (V m c main_v4)) hi).symm
  rw [flat_ix2]
  unfold flatEntry
  simp only [h0, h1, h2]

/-- An index of the output array is in point `t`'s block iff each coordinate is in the block's range on its axis. -/
theorem mem_blk (t : Fin cfg0.N) (i : S16384x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v6).slice (win0_3.rect t)).set ↔ _
  rw [View.set_slice_whole, Rect.mem_set_unit]
  exact Iff.rfl

/-- Every index of the output array lies in the block some point writes back: row `r` in that of point `r / 2048`. -/
theorem cover (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hlt : (i 0).val / 2048 < grid0.N := by rw [N_0]; omega
  refine ⟨⟨(i 0).val / 2048, hlt⟩, flush0_3 _, ?_⟩
  rw [mem_blk]
  obtain ⟨-, -, -, -, -, -, e30, e31, -⟩ := index_facts ⟨(i 0).val / 2048, hlt⟩
  have e30' : win0_3.index ⟨(i 0).val / 2048, hlt⟩ (0 : Fin 2) = (i 0).val / 2048 := e30
  intro a
  match a with
  | ⟨0, _⟩ =>
    show win0_3.index ⟨(i 0).val / 2048, _⟩ (0 : Fin 2) * 2048 ≤ (i 0).val
      ∧ (i 0).val < win0_3.index ⟨(i 0).val / 2048, _⟩ (0 : Fin 2) * 2048 + 2048
    omega
  | ⟨1, _⟩ =>
    show win0_3.index ⟨(i 0).val / 2048, _⟩ (1 : Fin 2) * 512 ≤ (i 1).val
      ∧ (i 1).val < win0_3.index ⟨(i 0).val / 2048, _⟩ (1 : Fin 2) * 512 + 512
    omega

/-- The output array after the call is the flat distance array of the arrays the call finds. -/
theorem final (c : Dev nD) :
    (dats m 0 c).arrAt 3 cfg0.N = flat (V m c main_v0) (V m c main_v5) (V m c main_v4) :=
  (dats m 0 c).arrAt_eq_of_cover 3 _ (fun t _ => flushed_eq m c t) cover

end Cert.SqDist.Blocks

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.LibHostRowSum.lean ====
/-
  The host's float sum along the rows of a matrix, read at a row, at the ideal values.

  For an `M × N` array `x` summed over its second axis from an initial value, entry `p` of the result is the initial
  value plus the sum of row `p`'s `N` entries.
-/
import Idealize.ShloMosaic.Lib.ValueIdx
import Idealize.ShloMosaic.PureOps.Ideal.Laws

noncomputable section

open scoped BigOperators

namespace Cert.Lib.HostRowSum

open Idealize.ShloMosaic Idealize.ShloMosaic.ValueIdx

variable {M N : Nat}

/-- Over row `p`, the index with `k` put on the summed axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The host's sum over the second axis of an `M × N` array, at row `p`: the initial value plus the row's sum. -/
theorem hostRowSum_apply {φ : FTy} {u : Shape} (x : FVec Ideal ⟨2, ![M, N]⟩ φ) (init : u.Idx → Ideal φ)
    (h' : (⟨2, ![M, N]⟩ : Shape).ReducesTo [1] ⟨1, ![M]⟩) (hu : 0 < u.numel)
    (h : (⟨2, ![M, N]⟩ : Shape).Reduces [1] ⟨1, ![M]⟩) (p : Fin M) :
    Host.reduceAdd x init h' hu (ix1 p) = init (Shape.Idx.first hu) + ∑ k : Fin N, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_row h p k))

end Cert.Lib.HostRowSum

end
-- ==== Proof.Entry.lean ====
/-
  What the pallas_call finds in its three input arrays.

  Before the call the host flattens the token array `32 × 512 × 768` to `16384 × 768` (row `b · 512 + s` is token
  `(b, s)`), narrows the prototype table (the identity on the extended reals), and forms the row of the prototypes'
  squared norms: the table squared entry by entry, summed along the features from zero, set up as a `512 × 1` column and
  transposed to a `1 × 512` row.
-/
import proofs.«109494_j50818053047015_2_alg».proof.Proof.Gen.KernelIdeal.Frame
import proofs.«109494_j50818053047015_2_alg».proof.Proof.LibReshape
import proofs.«109494_j50818053047015_2_alg».proof.Proof.LibHostRowSum
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.SqDist.Entry

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ)

/-- The token argument on core `c`, as an array of extended reals. -/
abbrev tok (c : Dev nD) : S32x512x768.Idx → EReal := m ((c : Thread nD τ).loc main_arg0)
/-- The prototype argument. -/
abbrev proto (c : Dev nD) : S512x768.Idx → EReal := m ((c : Thread nD τ).loc main_arg1)
/-- The flattened token array the call finds. -/
abbrev flatTok (c : Dev nD) : S16384x768.Idx → EReal := V m c main_v0
/-- The narrowed prototype table the call finds. -/
abbrev table (c : Dev nD) : S512x768.Idx → EReal := V m c main_v5
/-- The row of squared norms the call finds. -/
abbrev norms (c : Dev nD) : S1x512.Idx → EReal := V m c main_v4

/-- The flattened token array is the token argument re-read at rank two. -/
theorem tokens_eq (c : Dev nD) :
    flatTok m c = shapeCast S16384x768 (tok m c) Facts₀.shapeCasts_S32x512x768_S16384x768 := by
  show StableHlo.after hostOps0 (fun b => m (c, b)) (Proc.devRef .tc main_v0) = _
  after_results
  rfl

/-- Row `b · 512 + s` of the flattened array is token `(b, s)`. -/
theorem tokens_apply (c : Dev nD) (b : Fin 32) (s : Fin 512) (k : Fin 768) (r : Fin 16384) (hr : r.val = b.val * 512 + s.val) :
    flatTok m c (ix2 r k) = tok m c (ix3 b s k) := by
  rw [tokens_eq]
  exact Cert.Lib.Reshape.merge_apply _ Facts₀.shapeCasts_S32x512x768_S16384x768 b s k r hr

/-- The narrowed prototype table is the prototype argument. -/
theorem table_eq (c : Dev nD) :
    table m c = proto m c := by
  show StableHlo.after hostOps0 (fun b => m (c, b)) (Proc.devRef .tc main_v5) = _
  after_results
  rfl

/-- The row of squared norms, as the host operations' term of the prototype argument. -/
theorem norms_eq (c : Dev nD) :
    norms m c
      = transpose S1x512 [1, 0] (broadcastInDim S512x1 ![0] Facts₀.bcast_S512_S512x1_0
          (Host.reduceAdd (F := Ideal) (mulf (proto m c) (proto m c))
            (constant S_ .f32 0x00000000#32) Facts₀.reducesTo_S512x768_S512_d1 Facts₀.h_S_))
          Facts₀.transposes_S512x1_S1x512_1_0 := by
  show StableHlo.after hostOps0 (fun b => m (c, b)) (Proc.devRef .tc main_v4) = _
  after_results

/-- Entry `q` of the row is the squared norm of prototype `q`. -/
theorem norms_apply (c : Dev nD) (q : Fin 512) :
    norms m c (ix2 (0 : Fin 1) q) = ∑ k : Fin 768, proto m c (ix2 q k) * proto m c (ix2 q k) := by
  rw [norms_eq]
  refine (transpose_apply [1, 0] _ Facts₀.transposes_S512x1_S1x512_1_0 (ix2 (0 : Fin 1) q) (ix2 q (0 : Fin 1)) (fun b => ?_)).trans ?_
  · match b with
    | ⟨0, _⟩ => rfl
    | ⟨1, _⟩ => rfl
  refine (broadcastInDim_apply ![0] Facts₀.bcast_S512_S512x1_0 _ (ix2 q (0 : Fin 1)) (ix1 q) (fun a => ?_)).trans ?_
  · match a with
    | ⟨0, _⟩ => show q.val = if (512 : Nat) = 1 then 0 else q.val; rw [if_neg (by decide)]
  refine (Cert.Lib.HostRowSum.hostRowSum_apply _ _ Facts₀.reducesTo_S512x768_S512_d1 Facts₀.h_S_ (by decide) q).trans ?_
  rw [constant_apply, Ideal.ofBits_zero_f32, zero_add]
  rfl

end Cert.SqDist.Entry

end
-- ==== Proof.Spec.lean ====
/-
  Squared Euclidean distances from every token vector to every prototype, by the expansion
  `‖x - p‖² = ‖x‖² + ‖p‖² - 2 x·p`.

  For a token array `x` of shape `32 × 512 × 768` and a prototype table `p` of shape `512 × 768`, entry
  `(b, s, q)` of the result is the squared norm of token `(b, s)`, plus the squared norm of prototype `q`, minus twice
  their inner product, all three sums running over the `768` features. Everything is stated on the extended reals.
  One law joins the two spellings of the last term: adding `c · (-2)` is subtracting `2 · c`; it uses only that
  negation distributes over a product and that subtraction is adding the negative, both of which hold at the
  infinities too, so no finiteness is needed.
-/
import Idealize.ShloMosaic.Lib.ValueIdx
import Idealize.ShloMosaic.PureOps.Ideal.Laws

noncomputable section

open scoped BigOperators

namespace Cert.SqDist

open Idealize.ShloMosaic Idealize.ShloMosaic.ValueIdx

/-- The squared norm of token `(b, s)`. -/
def tokSq (x : (⟨3, ![32, 512, 768]⟩ : Shape).Idx → EReal) (b : Fin 32) (s : Fin 512) : EReal :=
  ∑ d : Fin 768, x (ix3 b s d) * x (ix3 b s d)

/-- The squared norm of prototype `q`. -/
def protoSq (p : (⟨2, ![512, 768]⟩ : Shape).Idx → EReal) (q : Fin 512) : EReal :=
  ∑ d : Fin 768, p (ix2 q d) * p (ix2 q d)

/-- The inner product of token `(b, s)` with prototype `q`. -/
def cross (x : (⟨3, ![32, 512, 768]⟩ : Shape).Idx → EReal) (p : (⟨2, ![512, 768]⟩ : Shape).Idx → EReal)
    (b : Fin 32) (s : Fin 512) (q : Fin 512) : EReal :=
  ∑ d : Fin 768, x (ix3 b s d) * p (ix2 q d)

/-- The squared distance from token `(b, s)` to prototype `q`, expanded. -/
def entry (x : (⟨3, ![32, 512, 768]⟩ : Shape).Idx → EReal) (p : (⟨2, ![512, 768]⟩ : Shape).Idx → EReal)
    (b : Fin 32) (s : Fin 512) (q : Fin 512) : EReal :=
  (tokSq x b s + protoSq p q) - ((2 : ℝ) : EReal) * cross x p b s q

/-- The whole array of squared distances. -/
def dist (x : (⟨3, ![32, 512, 768]⟩ : Shape).Idx → EReal) (p : (⟨2, ![512, 768]⟩ : Shape).Idx → EReal) :
    (⟨3, ![32, 512, 512]⟩ : Shape).Idx → EReal :=
  fun i => entry x p (i 0) (i 1) (i 2)

theorem dist_ix3 (x : (⟨3, ![32, 512, 768]⟩ : Shape).Idx → EReal) (p : (⟨2, ![512, 768]⟩ : Shape).Idx → EReal)
    (b : Fin 32) (s : Fin 512) (q : Fin 512) : dist x p (ix3 b s q) = entry x p b s q := rfl

/-- Adding `c · (-2)` is subtracting `2 · c`, for all extended reals. -/
theorem add_mul_neg_two (a c : EReal) : a + c * ((-2 : ℝ) : EReal) = a - ((2 : ℝ) : EReal) * c := by
  rw [sub_eq_add_neg, EReal.coe_neg, mul_neg, mul_comm]

end Cert.SqDist

end
-- ==== Proof.KernelDist.lean ====
/-
  The kernel program's result is the array of squared distances.

  After the pallas_call the host re-reads the flat `16384 × 512` output at rank three: entry `(b, s, q)` of the result
  is the flat array's entry at row `b · 512 + s`, column `q`. That row of the flattened token array is token `(b, s)`,
  the prototype table the call reads is the prototype argument, and entry `q` of the row of norms is the squared norm of
  prototype `q`; so the entry is `(‖x‖² + ‖p‖²) + (x·p) · (-2)`, which is `(‖x‖² + ‖p‖²) - 2 · (x·p)`.
-/
import proofs.«109494_j50818053047015_2_alg».proof.Proof.Gen.KernelIdeal.Frame
import proofs.«109494_j50818053047015_2_alg».proof.Proof.Blocks
import proofs.«109494_j50818053047015_2_alg».proof.Proof.Entry
import proofs.«109494_j50818053047015_2_alg».proof.Proof.Spec
import proofs.«109494_j50818053047015_2_alg».proof.Proof.LibReshape
import Idealize.ShloMosaic.Lib.StableHlo.Run

noncomputable section

open scoped BigOperators

namespace Cert.SqDist.Kernel

open Idealize.ShloMosaic Idealize.ShloMosaic.TcCoe Idealize.ShloMosaic.ValueIdx Idealize.SL.Sem
open Cert.KernelIdeal Cert.KernelIdeal.Gen Idealize.ShloMosaic.StableHlo

variable (m : (ℓ : Loc nD τ sig) → Buf (Elt Ideal) ℓ) (ρ : Dev nD → PrngReg)

/-- The result buffer after the last host line: the flat distance array re-read at rank three. -/
theorem tail_eq (c : Dev nD) :
    (Pipeline.afterTail₀ cfgs (dats m) 0 (V0 m) [hostOps1] c main_v7 : S32x512x512.Idx → EReal)
      = shapeCast S32x512x512 (Cert.SqDist.Blocks.flat (Cert.SqDist.Entry.flatTok m c) (Cert.SqDist.Entry.table m c) (Cert.SqDist.Entry.norms m c))
          Facts₀.shapeCasts_S16384x512_S32x512x512 := by
  have hw : Pipeline.withArrays (cfgs 0).spec c (V0 m c) (fun w => (dats m 0 c).arrAt w (cfgs 0).N) (Proc.devRef .tc main_v6)
      = Cert.SqDist.Blocks.flat (Cert.SqDist.Entry.flatTok m c) (Cert.SqDist.Entry.table m c) (Cert.SqDist.Entry.norms m c) :=
    (Pipeline.withArrays_arr spec0 launch0.win.arr_inj c _ _ 3).trans (Cert.SqDist.Blocks.final m c)
  unfold Pipeline.afterTail₀
  show StableHlo.after hostOps1 _ (Proc.devRef .tc main_v7) = _
  after_results
  exact congrArg (fun A => shapeCast S32x512x512 A Facts₀.shapeCasts_S16384x512_S32x512x512) hw

/-- Entry `(b, s, q)` of the result is the squared distance from token `(b, s)` to prototype `q`. -/
theorem result_apply (c : Dev nD) (b : Fin 32) (s : Fin 512) (q : Fin 512) :
    (Pipeline.afterTail₀ cfgs (dats m) 0 (V0 m) [hostOps1] c main_v7 : S32x512x512.Idx → EReal) (ix3 b s q)
      = Cert.SqDist.entry (Cert.SqDist.Entry.tok m c) (Cert.SqDist.Entry.proto m c) b s q := by
  have hb : b.val < 32 := b.isLt
  have hs : s.val < 512 := s.isLt
  have hR : b.val * 512 + s.val < 16384 := by omega
  have ht : ∀ k : Fin 768, Cert.SqDist.Entry.flatTok m c (ix2 (⟨b.val * 512 + s.val, hR⟩ : Fin 16384) k)
      = Cert.SqDist.Entry.tok m c (ix3 b s k) := fun k =>
    Cert.SqDist.Entry.tokens_apply m c b s k ⟨b.val * 512 + s.val, hR⟩ rfl
  rw [tail_eq]
  refine (Cert.Lib.Reshape.split_apply _ Facts₀.shapeCasts_S16384x512_S32x512x512 b s q
    (⟨b.val * 512 + s.val, hR⟩ : Fin 16384) rfl).trans ?_
  rw [Cert.SqDist.Blocks.flat_ix2]
  unfold Cert.SqDist.Blocks.flatEntry
  simp only [ht]
  rw [Cert.SqDist.Entry.norms_apply m c q, Cert.SqDist.Entry.table_eq m c]
  exact Cert.SqDist.add_mul_neg_two _ _

/-- The result buffer holds the array of squared distances of the two arguments. -/
theorem result_eq (c : Dev nD) :
    (Pipeline.afterTail₀ cfgs (dats m) 0 (V0 m) [hostOps1] c main_v7 : S32x512x512.Idx → EReal)
      = Cert.SqDist.dist (m ((c : Thread nD τ).loc main_arg0)) (m ((c : Thread nD τ).loc main_arg1)) := by
  funext i
  obtain ⟨b, s, q, rfl⟩ : ∃ (b : Fin 32) (s : Fin 512) (q : Fin 512), i = ix3 b s q := ⟨i 0, i 1, i 2, eq_ix3 i⟩
  rw [Cert.SqDist.dist_ix3]
  exact result_apply m c b s q

/-- Every weakly fair execution of the kernel program ends with the distances in its result buffer and its arguments
    unchanged. -/
theorem run : θ_run defs (onTc (τ := τ) (main (F := Ideal))) ⟨m, fun _ => 0, ρ⟩ fun r => ∀ c : Dev nD,
      r.2.mem ((c.tc : Thread nD τ).loc main_v7)
        = Cert.SqDist.dist (m ((c.tc : Thread nD τ).loc main_arg0)) (m ((c.tc : Thread nD τ).loc main_arg1))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (result_eq m c),
      ((h c).2 main_arg1 (Pipeline.mem_restRefs_of main_arg1 (by decide) (by decide))).trans (W_main_arg1 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.SqDist.Kernel

end
-- ==== Proof.RefDist.lean ====
/-
  The reference computes the expanded squared distances.

  Its result at `(b, s, q)` is read one operation at a time: the difference of a sum of two broadcasts — the token's
  squared norm, kept as a unit last axis and repeated along the prototypes, and the prototype's squared norm, set on the
  last axis and repeated over the tokens — and the product of the constant `2` with the contraction of the token array
  with the prototype table over the features. Each float sum starts from the zero word, which adds nothing.
-/
import proofs.«109494_j50818053047015_2_alg».proof.Proof.Gen.ReferenceIdeal.Read
import proofs.«109494_j50818053047015_2_alg».proof.Proof.Spec
import proofs.«109494_j50818053047015_2_alg».proof.Proof.Consts

noncomputable section

open scoped BigOperators

namespace Cert.SqDist.Ref

open Idealize.ShloMosaic Idealize.ShloMosaic.ValueIdx Cert.ReferenceIdeal Cert.ReferenceIdeal.Read

/-- The reference's last stage is the array of squared distances of its two arguments. -/
theorem val_eq_dist (x0 : (⟨S32x512x768, .f32⟩ : BufTy).Contents (Elt Ideal)) (x1 : (⟨S512x768, .f32⟩ : BufTy).Contents (Elt Ideal)) :
    val_main_v12 (F := Ideal) x0 x1 = Cert.SqDist.dist x0 x1 := by
  funext i
  obtain ⟨b, s, q, rfl⟩ : ∃ (b : Fin 32) (s : Fin 512) (q : Fin 512), i = ix3 b s q := ⟨i 0, i 1, i 2, eq_ix3 i⟩
  rw [Cert.SqDist.dist_ix3]
  have e1 : ∀ k : Fin 768, idx_main_v1 (idx_main_v2 (idx_main_v7 (ix3 b s q))) k = ix3 b s k := fun k =>
    funext fun a => Fin.ext (by match a with | ⟨0, _⟩ => rfl | ⟨1, _⟩ => rfl | ⟨2, _⟩ => rfl)
  have e4 : ∀ k : Fin 768, idx_main_v4 (idx_main_v6 (idx_main_v8 (ix3 b s q))) k = ix2 q k := fun k =>
    funext fun a => Fin.ext (by match a with | ⟨0, _⟩ => rfl | ⟨1, _⟩ => rfl)
  have el : ∀ k : Fin 768, lidx_main_v5 (ix3 b s q) k = ix3 b s k := fun k =>
    funext fun a => Fin.ext (by match a with | ⟨0, _⟩ => rfl | ⟨1, _⟩ => rfl | ⟨2, _⟩ => rfl)
  have er : ∀ k : Fin 768, ridx_main_v5 (ix3 b s q) k = ix2 q k := fun k =>
    funext fun a => Fin.ext (by match a with | ⟨0, _⟩ => rfl | ⟨1, _⟩ => rfl)
  rw [val_main_v12_apply, val_main_v9_apply, val_main_v7_apply, val_main_v2_apply, val_main_v1_apply,
    val_main_v8_apply, val_main_v6_apply, val_main_v4_apply, val_main_v11_apply, val_main_v10_apply, val_main_v5_apply]
  simp only [val_main_v0_apply, val_main_v3_apply, val_main_cst_apply, val_main_cst_0_apply, val_main_cst_1_apply,
    Ideal.ofBits_def, Ideal.subf_def, Ideal.addf_def, Ideal.mulf_def, Ideal.ofBits_zero_f32, zero_add,
    Cert.SqDist.Consts.ofBits_two, e1, e4, el, er]
  rfl

end Cert.SqDist.Ref

end
-- ==== Proof.lean ====
/-
  The certificate of the squared-distance kernel against its reference.

  Both programs compute, for every token `(b, s)` and prototype `q`, the expansion
  `‖x - p‖² = ‖x‖² + ‖p‖² - 2 x·p` of the squared Euclidean distance. The reference forms the three terms on the host
  and subtracts `2 · (x·p)`. The kernel flattens the tokens, forms the prototypes' squared norms on the host, and in a
  pallas_call over eight blocks of `2048` flattened tokens sums the squares along the lanes, takes the product with the
  prototype table on the matrix unit, and adds `(x·p) · (-2)`; the host then restores the token axes. On the extended
  reals a change of float format is the identity, a lane sum and a host sum of the same entries agree, and so do the
  two products; what is left is the law `a + c · (-2) = a - 2 · c`, true for all extended reals, so the precondition is
  never opened. The frames are the generated ones; the reference's frame is its generated run with the result dropped.
-/
import proofs.«109494_j50818053047015_2_alg».proof.Defs
import proofs.«109494_j50818053047015_2_alg».proof.Proof.Gen.Kernel
import proofs.«109494_j50818053047015_2_alg».proof.Proof.Gen.Kernel.Skeleton
import proofs.«109494_j50818053047015_2_alg».proof.Proof.Gen.Kernel.Launch
import proofs.«109494_j50818053047015_2_alg».proof.Proof.Gen.Kernel.Points
import proofs.«109494_j50818053047015_2_alg».proof.Proof.Gen.Kernel.Frame
import proofs.«109494_j50818053047015_2_alg».proof.Proof.Gen.KernelIdeal
import proofs.«109494_j50818053047015_2_alg».proof.Proof.Gen.KernelIdeal.Skeleton
import proofs.«109494_j50818053047015_2_alg».proof.Proof.Gen.KernelIdeal.Launch
import proofs.«109494_j50818053047015_2_alg».proof.Proof.Gen.KernelIdeal.Points
import proofs.«109494_j50818053047015_2_alg».proof.Proof.Gen.KernelIdeal.Frame
import proofs.«109494_j50818053047015_2_alg».proof.Proof.Gen.ReferenceIdeal
import proofs.«109494_j50818053047015_2_alg».proof.Proof.Gen.ReferenceIdeal.Run
import proofs.«109494_j50818053047015_2_alg».proof.Proof.Gen.ReferenceIdeal.Read
import proofs.«109494_j50818053047015_2_alg».proof.Proof.Gen.Pre_finite_inputs
import proofs.«109494_j50818053047015_2_alg».proof.Proof.KernelDist
import proofs.«109494_j50818053047015_2_alg».proof.Proof.RefDist
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the two arguments both programs end with the array of squared distances of those
    arguments in their first result and the prototype argument in their second. -/
theorem algebraic : Cert.algebraic_KernelIdeal_ReferenceIdeal := by
  intro m ρ m' ρ' _ hagree
  refine ⟨_, _, Cert.SqDist.Kernel.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.SqDist.Ref.val_eq_dist, (hagree c).1, (hagree c).2]
  · rw [(h c).2.1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
